-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S_ : Shape := ⟨0, ![]⟩

class Facts : Prop where
  bcast_S_S64x2x207x2048 : S_.BroadcastsInDim S64x2x207x2048 (![] : Fin 0 → Fin S64x2x207x2048.rank)
  reducesTo_S64x2x207x2048_S_d0_1_2_3 : S64x2x207x2048.ReducesTo [0, 1, 2, 3] S_
  h_S_ : 0 < S_.numel
  bcast_S_S288x1722 : S_.BroadcastsInDim S288x1722 (![] : Fin 0 → Fin S288x1722.rank)
  reducesTo_S288x1722_S_d0_1 : S288x1722.ReducesTo [0, 1] S_
  bcast_S_S288x207 : S_.BroadcastsInDim S288x207 (![] : Fin 0 → Fin S288x207.rank)
  reducesTo_S288x207_S_d0_1 : S288x207.ReducesTo [0, 1] S_

variable [Facts]

def fn {F : FTy → Type} [FloatOps F] (main_arg0 : FVec F S64x2x207x2048 .f32) (main_arg1 : IVec S64 32) (main_arg2 : IVec S1722 32) (main_arg3 : IVec S1722 32) (main_arg4 : FVec F S288x1722 .f32) (main_arg5 : FVec F S288x207 .f32) : IVec S_ 1 :=
  let main_v0 : FVec F S64x2x207x2048 .f32 := Host.absf main_arg0
  let main_cst : FVec F S_ .f32 := constant S_ .f32 0x7F800000#32
  let main_v1 : FVec F S64x2x207x2048 .f32 := broadcastInDim S64x2x207x2048 ![] bcast_S_S64x2x207x2048 main_cst
  let main_v2 : IVec S64x2x207x2048 1 := cmpf .olt main_v0 main_v1
  let main_c : IVec S_ 1 := constantI S_ 1 1#1
  let main_v3 : IVec S_ 1 := (fun x v => Host.reduce IntOp.andi x v reducesTo_S64x2x207x2048_S_d0_1_2_3 h_S_) main_v2 main_c
  let main_v4 : FVec F S288x1722 .f32 := Host.absf main_arg4
  let main_cst_0 : FVec F S_ .f32 := constant S_ .f32 0x7F800000#32
  let main_v5 : FVec F S288x1722 .f32 := broadcastInDim S288x1722 ![] bcast_S_S288x1722 main_cst_0
  let main_v6 : IVec S288x1722 1 := cmpf .olt main_v4 main_v5
  let main_c_1 : IVec S_ 1 := constantI S_ 1 1#1
  let main_v7 : IVec S_ 1 := (fun x v => Host.reduce IntOp.andi x v reducesTo_S288x1722_S_d0_1 h_S_) main_v6 main_c_1
  let main_v8 : IVec S_ 1 := andi main_v3 main_v7
  let main_v9 : FVec F S288x207 .f32 := Host.absf main_arg5
  let main_cst_2 : FVec F S_ .f32 := constant S_ .f32 0x7F800000#32
  let main_v10 : FVec F S288x207 .f32 := broadcastInDim S288x207 ![] bcast_S_S288x207 main_cst_2
  let main_v11 : IVec S288x207 1 := cmpf .olt main_v9 main_v10
  let main_c_3 : IVec S_ 1 := constantI S_ 1 1#1
  let main_v12 : IVec S_ 1 := (fun x v => Host.reduce IntOp.andi x v reducesTo_S288x207_S_d0_1 h_S_) main_v11 main_c_3
  let main_v13 : IVec S_ 1 := andi main_v8 main_v12
  main_v13
-- ==== Kernel.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S_ : Shape := ⟨0, ![]⟩
abbrev S64x1 : Shape := ⟨2, ![64, 1]⟩
abbrev S64x1722 : Shape := ⟨2, ![64, 1722]⟩
abbrev S64x207x207 : Shape := ⟨3, ![64, 207, 207]⟩
abbrev S1722x1 : Shape := ⟨2, ![1722, 1]⟩
abbrev S1722x2 : Shape := ⟨2, ![1722, 2]⟩
abbrev S64x207 : Shape := ⟨2, ![64, 207]⟩
abbrev S207x207 : Shape := ⟨2, ![207, 207]⟩
abbrev S64x207x1 : Shape := ⟨3, ![64, 207, 1]⟩
abbrev S1x207x207 : Shape := ⟨3, ![1, 207, 207]⟩
abbrev S64x207x2048 : Shape := ⟨3, ![64, 207, 2048]⟩
abbrev S2x1x207x2048 : Shape := ⟨4, ![2, 1, 207, 2048]⟩
abbrev S2x207x207 : Shape := ⟨3, ![2, 207, 207]⟩
abbrev S2x207x1 : Shape := ⟨3, ![2, 207, 1]⟩
abbrev S2x207x2048 : Shape := ⟨3, ![2, 207, 2048]⟩

abbrev nBuf : Space → Nat
  | .hbm => 79
  | .vmem => 8
  | .smem => 0
  | _ => 0

abbrev bufTy : (tb : Table) → Fin (tcTables nBuf tb) → BufTy
  | .hbm, ⟨0, _⟩ => ⟨S64x2x207x2048, .f32⟩
  | .hbm, ⟨1, _⟩ => ⟨S64, .i32⟩
  | .hbm, ⟨2, _⟩ => ⟨S1722, .i32⟩
  | .hbm, ⟨3, _⟩ => ⟨S1722, .i32⟩
  | .hbm, ⟨4, _⟩ => ⟨S288x1722, .f32⟩
  | .hbm, ⟨5, _⟩ => ⟨S288x207, .f32⟩
  | .hbm, ⟨6, _⟩ => ⟨S_, .i32⟩
  | .hbm, ⟨7, _⟩ => ⟨S_, .i32⟩
  | .hbm, ⟨8, _⟩ => ⟨S64, .i32⟩
  | .hbm, ⟨9, _⟩ => ⟨S64, .i32⟩
  | .hbm, ⟨10, _⟩ => ⟨S64, .i32⟩
  | .hbm, ⟨11, _⟩ => ⟨S_, .i32⟩
  | .hbm, ⟨12, _⟩ => ⟨S64, .i32⟩
  | .hbm, ⟨13, _⟩ => ⟨S64, .i1⟩
  | .hbm, ⟨14, _⟩ => ⟨S64, .i32⟩
  | .hbm, ⟨15, _⟩ => ⟨S64, .i32⟩
  | .hbm, ⟨16, _⟩ => ⟨S_, .i32⟩
  | .hbm, ⟨17, _⟩ => ⟨S64, .i32⟩
  | .hbm, ⟨18, _⟩ => ⟨S64, .i1⟩
  | .hbm, ⟨19, _⟩ => ⟨S64, .i1⟩
  | .hbm, ⟨20, _⟩ => ⟨S_, .i32⟩
  | .hbm, ⟨21, _⟩ => ⟨S64, .i32⟩
  | .hbm, ⟨22, _⟩ => ⟨S64, .i32⟩
  | .hbm, ⟨23, _⟩ => ⟨S64, .i32⟩
  | .hbm, ⟨24, _⟩ => ⟨S_, .i32⟩
  | .hbm, ⟨25, _⟩ => ⟨S64, .i32⟩
  | .hbm, ⟨26, _⟩ => ⟨S64, .i1⟩
  | .hbm, ⟨27, _⟩ => ⟨S_, .i32⟩
  | .hbm, ⟨28, _⟩ => ⟨S64, .i32⟩
  | .hbm, ⟨29, _⟩ => ⟨S64, .i32⟩
  | .hbm, ⟨30, _⟩ => ⟨S64, .i32⟩
  | .hbm, ⟨31, _⟩ => ⟨S64x1, .i32⟩
  | .hbm, ⟨32, _⟩ => ⟨S64x1722, .f32⟩
  | .hbm, ⟨33, _⟩ => ⟨S_, .f32⟩
  | .hbm, ⟨34, _⟩ => ⟨S64x207x207, .f32⟩
  | .hbm, ⟨35, _⟩ => ⟨S_, .i32⟩
  | .hbm, ⟨36, _⟩ => ⟨S1722, .i32⟩
  | .hbm, ⟨37, _⟩ => ⟨S1722, .i1⟩
  | .hbm, ⟨38, _⟩ => ⟨S_, .i32⟩
  | .hbm, ⟨39, _⟩ => ⟨S1722, .i32⟩
  | .hbm, ⟨40, _⟩ => ⟨S1722, .i32⟩
  | .hbm, ⟨41, _⟩ => ⟨S1722, .i32⟩
  | .hbm, ⟨42, _⟩ => ⟨S_, .i32⟩
  | .hbm, ⟨43, _⟩ => ⟨S1722, .i32⟩
  | .hbm, ⟨44, _⟩ => ⟨S1722, .i1⟩
  | .hbm, ⟨45, _⟩ => ⟨S_, .i32⟩
  | .hbm, ⟨46, _⟩ => ⟨S1722, .i32⟩
  | .hbm, ⟨47, _⟩ => ⟨S1722, .i32⟩
  | .hbm, ⟨48, _⟩ => ⟨S1722, .i32⟩
  | .hbm, ⟨49, _⟩ => ⟨S1722x1, .i32⟩
  | .hbm, ⟨50, _⟩ => ⟨S1722x1, .i32⟩
  | .hbm, ⟨51, _⟩ => ⟨S1722x2, .i32⟩
  | .hbm, ⟨52, _⟩ => ⟨S64x207x207, .f32⟩
  | .hbm, ⟨53, _⟩ => ⟨S_, .f32⟩
  | .hbm, ⟨54, _⟩ => ⟨S64x207, .f32⟩
  | .hbm, ⟨55, _⟩ => ⟨S207x207, .i32⟩
  | .hbm, ⟨56, _⟩ => ⟨S207x207, .i32⟩
  | .hbm, ⟨57, _⟩ => ⟨S_, .i32⟩
  | .hbm, ⟨58, _⟩ => ⟨S207x207, .i32⟩
  | .hbm, ⟨59, _⟩ => ⟨S207x207, .i32⟩
  | .hbm, ⟨60, _⟩ => ⟨S207x207, .i1⟩
  | .hbm, ⟨61, _⟩ => ⟨S207x207, .f32⟩
  | .hbm, ⟨62, _⟩ => ⟨S64x207x1, .f32⟩
  | .hbm, ⟨63, _⟩ => ⟨S1x207x207, .f32⟩
  | .hbm, ⟨64, _⟩ => ⟨S64x207x207, .f32⟩
  | .hbm, ⟨65, _⟩ => ⟨S64x207x207, .f32⟩
  | .hbm, ⟨66, _⟩ => ⟨S64x207x207, .f32⟩
  | .hbm, ⟨67, _⟩ => ⟨S64x207x207, .f32⟩
  | .hbm, ⟨68, _⟩ => ⟨S_, .i32⟩
  | .hbm, ⟨69, _⟩ => ⟨S64, .i32⟩
  | .hbm, ⟨70, _⟩ => ⟨S64, .i1⟩
  | .hbm, ⟨71, _⟩ => ⟨S_, .i32⟩
  | .hbm, ⟨72, _⟩ => ⟨S64, .i32⟩
  | .hbm, ⟨73, _⟩ => ⟨S64, .i32⟩
  | .hbm, ⟨74, _⟩ => ⟨S64, .i32⟩
  | .hbm, ⟨75, _⟩ => ⟨S64x1, .i32⟩
  | .hbm, ⟨76, _⟩ => ⟨S64x207, .f32⟩
  | .hbm, ⟨77, _⟩ => ⟨S64x207x1, .f32⟩
  | .hbm, ⟨78, _⟩ => ⟨S64x207x2048, .f32⟩
  | .local _ .vmem, ⟨0, _⟩ => ⟨S2x1x207x2048, .f32⟩
  | .local _ .vmem, ⟨1, _⟩ => ⟨S2x1x207x2048, .f32⟩
  | .local _ .vmem, ⟨2, _⟩ => ⟨S2x207x207, .f32⟩
  | .local _ .vmem, ⟨3, _⟩ => ⟨S2x207x207, .f32⟩
  | .local _ .vmem, ⟨4, _⟩ => ⟨S2x207x1, .f32⟩
  | .local _ .vmem, ⟨5, _⟩ => ⟨S2x207x1, .f32⟩
  | .local _ .vmem, ⟨6, _⟩ => ⟨S2x207x2048, .f32⟩
  | .local _ .vmem, ⟨7, _⟩ => ⟨S2x207x2048, .f32⟩
  | _, _ => ⟨S64x2x207x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v0 : Ref sig .tc := ⟨.hbm, 23, rfl⟩
abbrev main_c_0 : Ref sig .tc := ⟨.hbm, 24, rfl⟩
abbrev main_v1 : Ref sig .tc := ⟨.hbm, 25, rfl⟩
abbrev main_v2 : Ref sig .tc := ⟨.hbm, 26, rfl⟩
abbrev main_c_1 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_cst : Ref sig .tc := ⟨.hbm, 33, rfl⟩
abbrev main_v8 : Ref sig .tc := ⟨.hbm, 34, rfl⟩
abbrev main_c_2 : Ref sig .tc := ⟨.hbm, 35, rfl⟩
abbrev main_v9 : Ref sig .tc := ⟨.hbm, 36, rfl⟩
abbrev main_v10 : Ref sig .tc := ⟨.hbm, 37, rfl⟩
abbrev main_c_3 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_c_4 : Ref sig .tc := ⟨.hbm, 42, rfl⟩
abbrev main_v14 : Ref sig .tc := ⟨.hbm, 43, rfl⟩
abbrev main_v15 : Ref sig .tc := ⟨.hbm, 44, rfl⟩
abbrev main_c_5 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_6 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_c_7 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_c_8 : Ref sig .tc := ⟨.hbm, 68, rfl⟩
abbrev main_v36 : Ref sig .tc := ⟨.hbm, 69, rfl⟩
abbrev main_v37 : Ref sig .tc := ⟨.hbm, 70, rfl⟩
abbrev main_c_9 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x1x207x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x207x207 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x207x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x207x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S64 : S_.BroadcastsInDim S64 (![] : Fin 0 → Fin S64.rank)
  bcast_S64_S64x1_0 : S64.BroadcastsInDim S64x1 (![0] : Fin 1 → Fin S64x1.rank)
  bcast_S_S64x207x207 : S_.BroadcastsInDim S64x207x207 (![] : Fin 0 → Fin S64x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S64x207x207_S64x207_d1 : S64x207x207.ReducesTo [1] S64x207
  h_S_ : 0 < S_.numel
  bcast_S_S207x207 : S_.BroadcastsInDim S207x207 (![] : Fin 0 → Fin S207x207.rank)
  bcast_S64x207_S64x207x1_0_1 : S64x207.BroadcastsInDim S64x207x1 (![0, 1] : Fin 2 → Fin S64x207x1.rank)
  bcast_S207x207_S1x207x207_1_2 : S207x207.BroadcastsInDim S1x207x207 (![1, 2] : Fin 2 → Fin S1x207x207.rank)
  bcast_S64x207x1_S64x207x207_0_1_2 : S64x207x1.BroadcastsInDim S64x207x207 (![0, 1, 2] : Fin 3 → Fin S64x207x207.rank)
  bcast_S1x207x207_S64x207x207_0_1_2 : S1x207x207.BroadcastsInDim S64x207x207 (![0, 1, 2] : Fin 3 → Fin S64x207x207.rank)
  inb_S2x1x207x2048_S2x1x207x2048_0_0_0_0 : ∀ a, (![0, 0, 0, 0] : Fin 4 → Nat) a + S2x1x207x2048.size a ≤ S2x1x207x2048.size a
  h_S2x1x207x2048 : 0 < S2x1x207x2048.numel
  shapeCasts_S2x1x207x2048_S2x207x2048 : S2x1x207x2048.ShapeCasts S2x207x2048
  inb_S2x207x207_S2x207x207_0_0_0 : ∀ a, (![0, 0, 0] : Fin 3 → Nat) a + S2x207x207.size a ≤ S2x207x207.size a
  h_S2x207x207 : 0 < S2x207x207.numel
  shapeCasts_S2x207x207_S2x207x207 : S2x207x207.ShapeCasts S2x207x207
  inb_S2x207x1_S2x207x1_0_0_0 : ∀ a, (![0, 0, 0] : Fin 3 → Nat) a + S2x207x1.size a ≤ S2x207x1.size a
  h_S2x207x1 : 0 < S2x207x1.numel
  shapeCasts_S2x207x1_S2x207x1 : S2x207x1.ShapeCasts S2x207x1
  bitsLt_bf16_f32 : FTy.bits .bf16 < FTy.bits .f32
  broadcasts_S2x207x1_S2x207x2048 : S2x207x1.Broadcasts S2x207x2048
  inb_S2x207x2048_S2x207x2048_0_0_0 : ∀ a, (![0, 0, 0] : Fin 3 → Nat) a + S2x207x2048.size a ≤ S2x207x2048.size a
  h_S2x207x2048 : 0 < S2x207x2048.numel
  gather_S288x1722_S64x1_S64x1722_1_0_n_n_0_1_11722_wf : GatherDims.WF S288x1722 S64x1 S64x1722 [1] [0] [] [0] [] 1 ![1, 1722]
  scatter_S64x207x207_S1722x2_S64x1722_0_12_12_1_wf : ScatterDims.WF S64x207x207 S1722x2 S64x1722 [0] [1, 2] [1, 2] 1
  gather_S288x207_S64x1_S64x207_1_0_n_n_0_1_1207_wf : GatherDims.WF S288x207 S64x1 S64x207 [1] [0] [] [0] [] 1 ![1, 207]
  dot_S2x207x207_S2x207x2048_S2x207x2048_2_1_1_2_0_0_wf : DotDims.WF S2x207x207 S2x207x2048 S2x207x2048 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x1x207x2048.size a ≤ S64x2x207x2048.size a
  hwx0_0 : ∀ i : grid0.Coords, EltTy.bits .f32 = 32 ∨ (Rect.block (s := S64x2x207x2048) S2x1x207x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x207x207.size a ≤ S64x207x207.size a
  hwx0_1 : ∀ i : grid0.Coords, EltTy.bits .f32 = 32 ∨ (Rect.block (s := S64x207x207) S2x207x207.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x207x1.size a ≤ S64x207x1.size a
  hwx0_2 : ∀ i : grid0.Coords, EltTy.bits .f32 = 32 ∨ (Rect.block (s := S64x207x1) S2x207x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x207x2048.size a ≤ S64x207x2048.size a
  hwx0_3 : ∀ i : grid0.Coords, EltTy.bits .f32 = 32 ∨ (Rect.block (s := S64x207x2048) S2x207x2048.size (cc0_transform_3 i) (hinb0_3 i)).WholeWords (EltTy.packing .f32)

variable [Facts₀]

def gather_S288x1722_S64x1_S64x1722_1_0_n_n_0_1_11722 : GatherDims S288x1722 S64x1 S64x1722 where
  offsetDims := [1]
  collapsedSliceDims := [0]
  operandBatchingDims := []
  startIndicesBatchingDims := []
  startIndexMap := [0]
  indexVectorDim := 1
  sliceSizes := ![1, 1722]
  wf := gather_S288x1722_S64x1_S64x1722_1_0_n_n_0_1_11722_wf
def scatter_S64x207x207_S1722x2_S64x1722_0_12_12_1 : ScatterDims S64x207x207 S1722x2 S64x1722 where
  updateWindowDims := [0]
  insertedWindowDims := [1, 2]
  scatterDimsToOperandDims := [1, 2]
  indexVectorDim := 1
  wf := scatter_S64x207x207_S1722x2_S64x1722_0_12_12_1_wf
def gather_S288x207_S64x1_S64x207_1_0_n_n_0_1_1207 : GatherDims S288x207 S64x1 S64x207 where
  offsetDims := [1]
  collapsedSliceDims := [0]
  operandBatchingDims := []
  startIndicesBatchingDims := []
  startIndexMap := [0]
  indexVectorDim := 1
  sliceSizes := ![1, 207]
  wf := gather_S288x207_S64x1_S64x207_1_0_n_n_0_1_1207_wf
def dot_S2x207x207_S2x207x2048_S2x207x2048_2_1_1_2_0_0 : DotDims S2x207x207 S2x207x2048 S2x207x2048 where
  lhsContracting := [2]
  rhsContracting := [1]
  lhsNonContracting := [1]
  rhsNonContracting := [2]
  lhsBatch := [0]
  rhsBatch := [0]
  wf := dot_S2x207x207_S2x207x2048_S2x207x2048_2_1_1_2_0_0_wf

abbrev win0_0 : Pipeline.Window sig grid0 :=
  Pipeline.Window.ofSpec (Memref.whole main_arg0) S2x1x207x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v35) S2x207x207.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v43) S2x207x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v44) S2x207x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x2x207x2048 : Shape := ⟨4, ![64, 2, 207, 2048]⟩
abbrev S64 : Shape := ⟨1, ![64]⟩
abbrev S1722 : Shape := ⟨1, ![1722]⟩
abbrev S288x1722 : Shape := ⟨2, ![288, 1722]⟩
abbrev S288x207 : Shape := ⟨2, ![288, 207]⟩
abbrev S64x1x207x2048 : Shape := ⟨4, ![64, 1, 207, 2048]⟩
abbrev S64x207x2048 : Shape := ⟨3, ![64, 207, 2048]⟩
abbrev S_ : Shape := ⟨0, ![]⟩
abbrev S64x1 : Shape := ⟨2, ![64, 1]⟩
abbrev S64x1722 : Shape := ⟨2, ![64, 1722]⟩
abbrev S64x207x207 : Shape := ⟨3, ![64, 207, 207]⟩
abbrev S1722x1 : Shape := ⟨2, ![1722, 1]⟩
abbrev S1722x2 : Shape := ⟨2, ![1722, 2]⟩
abbrev S64x207 : Shape := ⟨2, ![64, 207]⟩
abbrev S64x207x1 : Shape := ⟨3, ![64, 207, 1]⟩
abbrev S207x207 : Shape := ⟨2, ![207, 207]⟩
abbrev S1x207x207 : Shape := ⟨3, ![1, 207, 207]⟩

abbrev nBuf : Space → Nat
  | .hbm => 84
  | .vmem => 0
  | .smem => 0
  | _ => 0

abbrev bufTy : (tb : Table) → Fin (tcTables nBuf tb) → BufTy
  | .hbm, ⟨0, _⟩ => ⟨S64x2x207x2048, .f32⟩
  | .hbm, ⟨1, _⟩ => ⟨S64, .i32⟩
  | .hbm, ⟨2, _⟩ => ⟨S1722, .i32⟩
  | .hbm, ⟨3, _⟩ => ⟨S1722, .i32⟩
  | .hbm, ⟨4, _⟩ => ⟨S288x1722, .f32⟩
  | .hbm, ⟨5, _⟩ => ⟨S288x207, .f32⟩
  | .hbm, ⟨6, _⟩ => ⟨S64x1x207x2048, .f32⟩
  | .hbm, ⟨7, _⟩ => ⟨S64x207x2048, .f32⟩
  | .hbm, ⟨8, _⟩ => ⟨S_, .i32⟩
  | .hbm, ⟨9, _⟩ => ⟨S_, .i32⟩
  | .hbm, ⟨10, _⟩ => ⟨S64, .i32⟩
  | .hbm, ⟨11, _⟩ => ⟨S64, .i32⟩
  | .hbm, ⟨12, _⟩ => ⟨S64, .i32⟩
  | .hbm, ⟨13, _⟩ => ⟨S_, .i32⟩
  | .hbm, ⟨14, _⟩ => ⟨S64, .i32⟩
  | .hbm, ⟨15, _⟩ => ⟨S64, .i1⟩
  | .hbm, ⟨16, _⟩ => ⟨S64, .i32⟩
  | .hbm, ⟨17, _⟩ => ⟨S64, .i32⟩
  | .hbm, ⟨18, _⟩ => ⟨S_, .i32⟩
  | .hbm, ⟨19, _⟩ => ⟨S64, .i32⟩
  | .hbm, ⟨20, _⟩ => ⟨S64, .i1⟩
  | .hbm, ⟨21, _⟩ => ⟨S64, .i1⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64, .i32⟩
  | .hbm, ⟨26, _⟩ => ⟨S_, .i32⟩
  | .hbm, ⟨27, _⟩ => ⟨S64, .i32⟩
  | .hbm, ⟨28, _⟩ => ⟨S64, .i1⟩
  | .hbm, ⟨29, _⟩ => ⟨S_, .i32⟩
  | .hbm, ⟨30, _⟩ => ⟨S64, .i32⟩
  | .hbm, ⟨31, _⟩ => ⟨S64, .i32⟩
  | .hbm, ⟨32, _⟩ => ⟨S64, .i32⟩
  | .hbm, ⟨33, _⟩ => ⟨S64x1, .i32⟩
  | .hbm, ⟨34, _⟩ => ⟨S64x1722, .f32⟩
  | .hbm, ⟨35, _⟩ => ⟨S_, .f32⟩
  | .hbm, ⟨36, _⟩ => ⟨S64x207x207, .f32⟩
  | .hbm, ⟨37, _⟩ => ⟨S_, .i32⟩
  | .hbm, ⟨38, _⟩ => ⟨S1722, .i32⟩
  | .hbm, ⟨39, _⟩ => ⟨S1722, .i1⟩
  | .hbm, ⟨40, _⟩ => ⟨S_, .i32⟩
  | .hbm, ⟨41, _⟩ => ⟨S1722, .i32⟩
  | .hbm, ⟨42, _⟩ => ⟨S1722, .i32⟩
  | .hbm, ⟨43, _⟩ => ⟨S1722, .i32⟩
  | .hbm, ⟨44, _⟩ => ⟨S_, .i32⟩
  | .hbm, ⟨45, _⟩ => ⟨S1722, .i32⟩
  | .hbm, ⟨46, _⟩ => ⟨S1722, .i1⟩
  | .hbm, ⟨47, _⟩ => ⟨S_, .i32⟩
  | .hbm, ⟨48, _⟩ => ⟨S1722, .i32⟩
  | .hbm, ⟨49, _⟩ => ⟨S1722, .i32⟩
  | .hbm, ⟨50, _⟩ => ⟨S1722, .i32⟩
  | .hbm, ⟨51, _⟩ => ⟨S1722x1, .i32⟩
  | .hbm, ⟨52, _⟩ => ⟨S1722x1, .i32⟩
  | .hbm, ⟨53, _⟩ => ⟨S1722x2, .i32⟩
  | .hbm, ⟨54, _⟩ => ⟨S64x207x207, .f32⟩
  | .hbm, ⟨55, _⟩ => ⟨S_, .f32⟩
  | .hbm, ⟨56, _⟩ => ⟨S64x207, .f32⟩
  | .hbm, ⟨57, _⟩ => ⟨S64x207x1, .f32⟩
  | .hbm, ⟨58, _⟩ => ⟨S207x207, .i32⟩
  | .hbm, ⟨59, _⟩ => ⟨S207x207, .i32⟩
  | .hbm, ⟨60, _⟩ => ⟨S_, .i32⟩
  | .hbm, ⟨61, _⟩ => ⟨S207x207, .i32⟩
  | .hbm, ⟨62, _⟩ => ⟨S207x207, .i32⟩
  | .hbm, ⟨63, _⟩ => ⟨S207x207, .i1⟩
  | .hbm, ⟨64, _⟩ => ⟨S207x207, .f32⟩
  | .hbm, ⟨65, _⟩ => ⟨S1x207x207, .f32⟩
  | .hbm, ⟨66, _⟩ => ⟨S64x207x207, .f32⟩
  | .hbm, ⟨67, _⟩ => ⟨S64x207x207, .f32⟩
  | .hbm, ⟨68, _⟩ => ⟨S64x207x207, .f32⟩
  | .hbm, ⟨69, _⟩ => ⟨S64x207x207, .f32⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S_, .i32⟩
  | .hbm, ⟨74, _⟩ => ⟨S64, .i32⟩
  | .hbm, ⟨75, _⟩ => ⟨S64, .i32⟩
  | .hbm, ⟨76, _⟩ => ⟨S64, .i32⟩
  | .hbm, ⟨77, _⟩ => ⟨S64x1, .i32⟩
  | .hbm, ⟨78, _⟩ => ⟨S64x207, .f32⟩
  | .hbm, ⟨79, _⟩ => ⟨S64x207x1, .f32⟩
  | .hbm, ⟨80, _⟩ => ⟨S64x207x2048, .f32⟩
  | .hbm, ⟨81, _⟩ => ⟨S64x207x2048, .f32⟩
  | .hbm, ⟨82, _⟩ => ⟨S64x207x2048, .f32⟩
  | .hbm, ⟨83, _⟩ => ⟨S64x207x2048, .f32⟩
  | _, _ => ⟨S64x2x207x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_0 : Ref sig .tc := ⟨.hbm, 26, rfl⟩
abbrev main_v3 : Ref sig .tc := ⟨.hbm, 27, rfl⟩
abbrev main_v4 : Ref sig .tc := ⟨.hbm, 28, rfl⟩
abbrev main_c_1 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_cst : Ref sig .tc := ⟨.hbm, 35, rfl⟩
abbrev main_v10 : Ref sig .tc := ⟨.hbm, 36, rfl⟩
abbrev main_c_2 : Ref sig .tc := ⟨.hbm, 37, rfl⟩
abbrev main_v11 : Ref sig .tc := ⟨.hbm, 38, rfl⟩
abbrev main_v12 : Ref sig .tc := ⟨.hbm, 39, rfl⟩
abbrev main_c_3 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_c_5 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_cst_6 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_c_7 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_c_9 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩

abbrev nD : Nat := 1
abbrev τ : Topo := Topo.v7x

variable {F : FTy → Type} [FloatOps F]

class Facts₀ : Prop where
  slices_S64x2x207x2048_S64x1x207x2048_0_0_0_0 : S64x2x207x2048.Slices ![0, 0, 0, 0] S64x1x207x2048
  shapeCasts_S64x1x207x2048_S64x207x2048 : S64x1x207x2048.ShapeCasts S64x207x2048
  bcast_S_S64 : S_.BroadcastsInDim S64 (![] : Fin 0 → Fin S64.rank)
  bcast_S64_S64x1_0 : S64.BroadcastsInDim S64x1 (![0] : Fin 1 → Fin S64x1.rank)
  bcast_S_S64x207x207 : S_.BroadcastsInDim S64x207x207 (![] : Fin 0 → Fin S64x207x207.rank)
  bcast_S_S1722 : S_.BroadcastsInDim S1722 (![] : Fin 0 → Fin S1722.rank)
  bcast_S1722_S1722x1_0 : S1722.BroadcastsInDim S1722x1 (![0] : Fin 1 → Fin S1722x1.rank)
  concatenates_S1722x1_S1722x1_S1722x2_d1 : Shape.Concatenates [S1722x1, S1722x1] S1722x2 1
  reducesTo_S64x207x207_S64x207_d1 : S64x207x207.ReducesTo [1] S64x207
  h_S_ : 0 < S_.numel
  bcast_S64x207_S64x207x1_0_1 : S64x207.BroadcastsInDim S64x207x1 (![0, 1] : Fin 2 → Fin S64x207x1.rank)
  bcast_S_S207x207 : S_.BroadcastsInDim S207x207 (![] : Fin 0 → Fin S207x207.rank)
  bcast_S207x207_S1x207x207_1_2 : S207x207.BroadcastsInDim S1x207x207 (![1, 2] : Fin 2 → Fin S1x207x207.rank)
  bcast_S64x207x1_S64x207x207_0_1_2 : S64x207x1.BroadcastsInDim S64x207x207 (![0, 1, 2] : Fin 3 → Fin S64x207x207.rank)
  bcast_S1x207x207_S64x207x207_0_1_2 : S1x207x207.BroadcastsInDim S64x207x207 (![0, 1, 2] : Fin 3 → Fin S64x207x207.rank)
  bcast_S64x207x1_S64x207x2048_0_1_2 : S64x207x1.BroadcastsInDim S64x207x2048 (![0, 1, 2] : Fin 3 → Fin S64x207x2048.rank)
  gather_S288x1722_S64x1_S64x1722_1_0_n_n_0_1_11722_wf : GatherDims.WF S288x1722 S64x1 S64x1722 [1] [0] [] [0] [] 1 ![1, 1722]
  scatter_S64x207x207_S1722x2_S64x1722_0_12_12_1_wf : ScatterDims.WF S64x207x207 S1722x2 S64x1722 [0] [1, 2] [1, 2] 1
  gather_S288x207_S64x1_S64x207_1_0_n_n_0_1_1207_wf : GatherDims.WF S288x207 S64x1 S64x207 [1] [0] [] [0] [] 1 ![1, 207]
  dot_S64x207x207_S64x207x2048_S64x207x2048_2_1_1_2_0_0_wf : DotDims.WF S64x207x207 S64x207x2048 S64x207x2048 [2] [1] [1] [2] [0] [0]

variable [Facts₀]

def gather_S288x1722_S64x1_S64x1722_1_0_n_n_0_1_11722 : GatherDims S288x1722 S64x1 S64x1722 where
  offsetDims := [1]
  collapsedSliceDims := [0]
  operandBatchingDims := []
  startIndicesBatchingDims := []
  startIndexMap := [0]
  indexVectorDim := 1
  sliceSizes := ![1, 1722]
  wf := gather_S288x1722_S64x1_S64x1722_1_0_n_n_0_1_11722_wf
def scatter_S64x207x207_S1722x2_S64x1722_0_12_12_1 : ScatterDims S64x207x207 S1722x2 S64x1722 where
  updateWindowDims := [0]
  insertedWindowDims := [1, 2]
  scatterDimsToOperandDims := [1, 2]
  indexVectorDim := 1
  wf := scatter_S64x207x207_S1722x2_S64x1722_0_12_12_1_wf
def gather_S288x207_S64x1_S64x207_1_0_n_n_0_1_1207 : GatherDims S288x207 S64x1 S64x207 where
  offsetDims := [1]
  collapsedSliceDims := [0]
  operandBatchingDims := []
  startIndicesBatchingDims := []
  startIndexMap := [0]
  indexVectorDim := 1
  sliceSizes := ![1, 207]
  wf := gather_S288x207_S64x1_S64x207_1_0_n_n_0_1_1207_wf
def dot_S64x207x207_S64x207x2048_S64x207x2048_2_1_1_2_0_0 : DotDims S64x207x207 S64x207x2048 S64x207x2048 where
  lhsContracting := [2]
  rhsContracting := [1]
  lhsNonContracting := [1]
  rhsNonContracting := [2]
  lhsBatch := [0]
  rhsBatch := [0]
  wf := dot_S64x207x207_S64x207x2048_S64x207x2048_2_1_1_2_0_0_wf

class Facts : Prop extends Facts₀ where

variable [Facts]
-- ==== Proof.BatchedProduct.lean ====
/-
  A batched matrix product read at one entry.

  Both programs multiply, batch by batch, a matrix of shape [B, M, K] by one of shape [B, K, N] — the kernel on the two
  batches of a block, the reference on all sixty-four at once — under the same dimension numbers: batch axis 0 of
  both operands, the left operand's last axis contracted against the right operand's middle axis. At the ideal values
  such a product at the entry (b, r, c) is the sum over the contraction index of lhs · rhs at the operand indices the
  dimension numbers name; this module says which indices those are:

      ∑_k lhs (lhsIdx (b, r, c) k) · rhs (rhsIdx (b, r, c) k)  =  ∑_{v < K} lhs (b, r, v) · rhs (b, v, c).

  The contraction index is a one-axis index, so the sum is re-indexed over `Fin K`; on the batch and free axes each operand
  index reads the output index, on the contracted axis the contraction index.
-/
import Idealize.ShloMosaic.PureOps.Ideal
import Idealize.ShloMosaic.Lib.ValueIdx

noncomputable section

namespace Cert.BatchedProduct

open Idealize.ShloMosaic Idealize.ShloMosaic.ValueIdx

/-- The dimension numbers of `[B, M, K] × [B, K, N] → [B, M, N]`: batch axes 0 and 0, the left operand's axis 2 contracted
    with the right operand's axis 1, the free axes 1 (left) and 2 (right). -/
def dims (B M K N : Nat)
    (wf : DotDims.WF ⟨3, ![B, M, K]⟩ ⟨3, ![B, K, N]⟩ ⟨3, ![B, M, N]⟩ [2] [1] [1] [2] [0] [0]) :
    DotDims ⟨3, ![B, M, K]⟩ ⟨3, ![B, K, N]⟩ ⟨3, ![B, M, N]⟩ where
  lhsContracting := [2]
  rhsContracting := [1]
  lhsNonContracting := [1]
  rhsNonContracting := [2]
  lhsBatch := [0]
  rhsBatch := [0]
  wf := wf

variable {B M K N : Nat}
  (wf : DotDims.WF ⟨3, ![B, M, K]⟩ ⟨3, ![B, K, N]⟩ ⟨3, ![B, M, N]⟩ [2] [1] [1] [2] [0] [0])

/-- The left operand's index at output entry `(b, r, c)` and contraction position `v` is `(b, r, v)`. -/
theorem lhsIdx_eq (b : Fin B) (r : Fin M) (c : Fin N) (v : Fin K) :
    (dims B M K N wf).lhsIdx (ix3 b r c) ((contrEquiv1 (dims B M K N wf) K rfl rfl).symm v) = ix3 b r v := by
  funext a
  apply Fin.ext
  match a with
  | ⟨0, _⟩ => rfl
  | ⟨1, _⟩ => rfl
  | ⟨2, _⟩ =>
    exact ((dims B M K N wf).lhsIdx_val_of_single rfl _ _).trans (contrEquiv1_symm_val (dims B M K N wf) K rfl rfl v)

/-- The right operand's index there is `(b, v, c)`. -/
theorem rhsIdx_eq (b : Fin B) (r : Fin M) (c : Fin N) (v : Fin K) :
    (dims B M K N wf).rhsIdx (ix3 b r c) ((contrEquiv1 (dims B M K N wf) K rfl rfl).symm v) = ix3 b v c := by
  funext a
  apply Fin.ext
  match a with
  | ⟨0, _⟩ => rfl
  | ⟨1, _⟩ =>
    exact ((dims B M K N wf).rhsIdx_val_of_single rfl _ _).trans (contrEquiv1_symm_val (dims B M K N wf) K rfl rfl v)
  | ⟨2, _⟩ => rfl

/-- The contraction sum of a batched product at the entry `(b, r, c)`, over `Fin K`. -/
theorem sum_eq (lhs : (⟨3, ![B, M, K]⟩ : Shape).Idx → EReal) (rhs : (⟨3, ![B, K, N]⟩ : Shape).Idx → EReal)
    (b : Fin B) (r : Fin M) (c : Fin N) :
    ∑ k : (dims B M K N wf).contr.Idx,
        lhs ((dims B M K N wf).lhsIdx (ix3 b r c) k) * rhs ((dims B M K N wf).rhsIdx (ix3 b r c) k)
      = ∑ v : Fin K, lhs (ix3 b r v) * rhs (ix3 b v c) := by
  rw [← Equiv.sum_comp (contrEquiv1 (dims B M K N wf) K rfl rfl).symm]
  refine Finset.sum_congr rfl fun v _ => ?_
  rw [lhsIdx_eq, rhsIdx_eq]

end Cert.BatchedProduct

end
-- ==== Proof.KernelBody.lean ====
/-
  The kernel body's value at one entry of its output block.

  At a grid point the body loads a block `x0` of the input (two batches, the one staged channel, 207 nodes, 2048 positions),
  the two batches' Laplacians `x1` and biases `x2`, and stores
  `(matmul x1 x0' 0 + broadcast x2) + x0'`, where `x0'` is `x0` with its unit channel axis dropped and the two
  changes of float format are the identity at the ideal values. Read at the entry `(p, w, l)` of the block this is

      (∑_{v < 207} x1 (p, w, v) · x0 (p, 0, v, l) + x2 (p, w, 0)) + x0 (p, 0, w, l):

  the matrix product into the zero accumulator is the plain contraction sum, re-indexed over `Fin 207` by the batched
  product's lemma; the shape cast keeps the row-major position; the broadcast reads its operand at last coordinate 0.
-/
import proofs.«149644_j90872918049151_2_alg».proof.Proof.Gen.KernelIdeal.Skeleton
import proofs.«149644_j90872918049151_2_alg».proof.Proof.BatchedProduct
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- Dropping the block's unit channel axis: the entry `(p, w, l)` of the cast is the entry `(p, 0, w, l)` of the block
    (the same row-major position). -/
theorem dropChannel_apply (x0 : S2x1x207x2048.Idx → EReal) (p : Fin 2) (w : Fin 207) (l : Fin 2048) :
    shapeCast S2x207x2048 x0 shapeCasts_S2x1x207x2048_S2x207x2048 (ix3 p w l) = x0 (ix4 p (0 : Fin 1) w l) :=
  shapeCast_apply x0 _ (ix3 p w l) (ix4 p (0 : Fin 1) w l) (by
    rw [Shape.rowMajor_val_four, Shape.rowMajor_val_three]
    show ((p.val * 1 + 0) * 207 + w.val) * 2048 + l.val = (p.val * 207 + w.val) * 2048 + l.val
    omega)

/-- The bias column broadcast along the last axis: the entry `(p, w, l)` is the column's entry `(p, w, 0)`. -/
theorem biasColumn_apply (x2 : S2x207x1.Idx → EReal) (p : Fin 2) (w : Fin 207) (l : Fin 2048) :
    broadcastTo S2x207x2048 x2 broadcasts_S2x207x1_S2x207x2048 (ix3 p w l) = x2 (ix3 p w (0 : Fin 1)) :=
  broadcastTo_apply x2 _ (ix3 p w l) (ix3 p w (0 : Fin 1)) (fun a => by
    match a with
    | ⟨0, _⟩ => rfl
    | ⟨1, _⟩ => rfl
    | ⟨2, _⟩ => rfl)

/-- The kernel's dimension numbers are the batched product's, at two batches. -/
theorem dot_eq : dot_S2x207x207_S2x207x2048_S2x207x2048_2_1_1_2_0_0
    = Cert.BatchedProduct.dims 2 207 207 2048 Facts₀.dot_S2x207x207_S2x207x2048_S2x207x2048_2_1_1_2_0_0_wf := rfl

/-- THE BODY'S STORED VALUE at the entry `(p, w, l)` of the output block. -/
theorem payload_apply (x0 : Vec Ideal S2x1x207x2048 .f32) (x1 : Vec Ideal S2x207x207 .f32) (x2 : Vec Ideal S2x207x1 .f32)
    (p : Fin 2) (w : Fin 207) (l : Fin 2048) :
    k0_pay1 x0 x1 x2 (ix3 p w l)
      = ((∑ v : Fin 207, x1 (ix3 p w v) * x0 (ix4 p (0 : Fin 1) v l)) + x2 (ix3 p w (0 : Fin 1))) + x0 (ix4 p (0 : Fin 1) w l) := by
  unfold k0_pay1
  rw [addf_apply, addf_apply, shapeCast_self, shapeCast_self, dropChannel_apply, biasColumn_apply]
  simp only [matmul]
  rw [Ideal.matmul_constant_zero_apply]
  simp only [truncf_apply]
  rw [dot_eq, Cert.BatchedProduct.sum_eq]
  refine congrArg (· + _ + _) (Finset.sum_congr rfl fun v _ => ?_)
  rw [dropChannel_apply]

end Cert.KernelIdeal.Body

end
-- ==== Proof.Diffusion.lean ====
/-
  The value both programs compute, as one function of three arrays.

  With `x` the input of shape [64, 2, 207, 2048] (only its channel 0 is read), `lap` the per-batch graph Laplacian of shape
  [64, 207, 207] and `bias` the per-batch node bias of shape [64, 207, 1], the result of shape [64, 207, 2048] is, entry by entry,

      out (b, w, l) = (∑_{v < 207} lap (b, w, v) · x (b, 0, v, l) + bias (b, w, 0)) + x (b, 0, w, l)

  on the extended reals: one diffusion step `Lap · x`, the bias added along the last axis, and the residual `x`.
  The sums are associated exactly as both programs associate them, so no law of the extended reals beyond the
  definition of the operations is needed to meet either side.
-/
import Idealize.ShloMosaic.PureOps.Ideal
import Idealize.ShloMosaic.Lib.ValueIdx

noncomputable section

namespace Cert.Diffusion

open Idealize.ShloMosaic Idealize.ShloMosaic.ValueIdx

/-- The entry `(b, w, l)` of the result: row `w` of batch `b`'s Laplacian against column `l` of batch `b`'s channel-0 slab,
    plus the node's bias, plus the slab's own entry. -/
def entry (x : (⟨4, ![64, 2, 207, 2048]⟩ : Shape).Idx → EReal) (lap : (⟨3, ![64, 207, 207]⟩ : Shape).Idx → EReal)
    (bias : (⟨3, ![64, 207, 1]⟩ : Shape).Idx → EReal) (b : Fin 64) (w : Fin 207) (l : Fin 2048) : EReal :=
  ((∑ v : Fin 207, lap (ix3 b w v) * x (ix4 b (0 : Fin 2) v l)) + bias (ix3 b w (0 : Fin 1))) + x (ix4 b (0 : Fin 2) w l)

/-- The whole result array. -/
def diffusion (x : (⟨4, ![64, 2, 207, 2048]⟩ : Shape).Idx → EReal) (lap : (⟨3, ![64, 207, 207]⟩ : Shape).Idx → EReal)
    (bias : (⟨3, ![64, 207, 1]⟩ : Shape).Idx → EReal) : (⟨3, ![64, 207, 2048]⟩ : Shape).Idx → EReal :=
  fun i => entry x lap bias (i 0) (i 1) (i 2)

theorem diffusion_ix3 (x : (⟨4, ![64, 2, 207, 2048]⟩ : Shape).Idx → EReal) (lap : (⟨3, ![64, 207, 207]⟩ : Shape).Idx → EReal)
    (bias : (⟨3, ![64, 207, 1]⟩ : Shape).Idx → EReal) (b : Fin 64) (w : Fin 207) (l : Fin 2048) :
    diffusion x lap bias (ix3 b w l) = entry x lap bias b w l := rfl

end Cert.Diffusion

end
-- ==== Proof.KernelBlocks.lean ====
/-
  From the kernel's blocks to its whole result array.

  The grid has 32 points; point `t` stages batches `2t, 2t+1` of each operand — of the input only channel 0, the whole node
  and position axes — and writes back batches `2t, 2t+1` of the result. So what point `t` writes back is block `t` of the one
  whole-array function `diffusion` of the arrays as the region finds them: an entry `(p, w, l)` of the block is the entry
  `(2t + p, w, l)` of the array, and each operand entry the body reads there lies at the same batch `2t + p`. The 32
  blocks tile the result (the batch `b` is in block `b / 2`), so after the run the result array is `diffusion` everywhere.
-/
import proofs.«149644_j90872918049151_2_alg».proof.Proof.Gen.KernelIdeal.Value
import proofs.«149644_j90872918049151_2_alg».proof.Proof.KernelBody
import proofs.«149644_j90872918049151_2_alg».proof.Proof.Diffusion

noncomputable section

namespace Cert.KernelIdeal.Blocks

open Cert.KernelIdeal Cert.KernelIdeal.Gen Idealize.ShloMosaic Idealize.ShloMosaic.TcCoe Idealize.SL.Sem
open Idealize.ShloMosaic.ValueIdx Cert.Diffusion
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- The index maps over the grid: every window moves along its batch axis with the output and stays at block 0 on
    every other axis; the output's batch block index is at most 31. -/
theorem index_facts : ∀ t : Fin cfg0.N,
    win0_0.index t (0 : Fin 4) = win0_3.index t (0 : Fin 3) ∧ win0_0.index t (1 : Fin 4) = 0
    ∧ win0_0.index t (2 : Fin 4) = 0 ∧ win0_0.index t (3 : Fin 4) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (1 : Fin 3) = 0 ∧ win0_3.index t (2 : Fin 3) = 0 ∧ win0_3.index t (0 : Fin 3) ≤ 31 :=
  (by decide +kernel : ∀ t : Fin grid0.N, _)

/-- Every pair of batches is some point's. -/
theorem index_onto : ∀ q : Fin 32, ∃ t : Fin cfg0.N, win0_3.index t = ![q.val, 0, 0] :=
  (by decide +kernel : ∀ q : Fin 32, ∃ t : Fin grid0.N, win0_3.index t = ![q.val, 0, 0])

/-- Each input window's block at a point is its array, as the region finds it, read through the block. -/
theorem block0 (c : Dev nD) (t : Fin cfg0.N) :
    iblk m c 0 t = ((cfg0.win 0).blk t).view.read (Elt Ideal) (V m c main_arg0) := rfl
theorem block1 (c : Dev nD) (t : Fin cfg0.N) :
    iblk m c 1 t = ((cfg0.win 1).blk t).view.read (Elt Ideal) (V m c main_v35) := rfl
theorem block2 (c : Dev nD) (t : Fin cfg0.N) :
    iblk m c 2 t = ((cfg0.win 2).blk t).view.read (Elt Ideal) (V m c main_v43) := rfl

/-- The body's value over blocks of ANY three arrays, read through the output's block, is block `t` of `diffusion` of those
    arrays: the entry `(p, w, l)` of the block is the array's entry `(2·index + p, w, l)`, and every operand entry read
    there lies at that batch. -/
theorem body_block (t : Fin cfg0.N) (X : S64x2x207x2048.Idx → EReal) (L : S64x207x207.Idx → EReal) (Bv : S64x207x1.Idx → EReal) :
    (cfg0.win 3).cut (grid0.coords t)
        (k0_pay1 (((cfg0.win 0).blk t).view.read (Elt Ideal) X) (((cfg0.win 1).blk t).view.read (Elt Ideal) L)
          (((cfg0.win 2).blk t).view.read (Elt Ideal) Bv))
      = ((cfg0.win 3).blk t).view.read (Elt Ideal) (diffusion X L Bv) := by
  obtain ⟨a0, a1, a2, a3, l0, l1, l2, b0, b1, b2, o1, o2, o0⟩ := index_facts t
  refine funext fun (j : S2x207x2048.Idx) => ?_
  obtain ⟨p, w, l, rfl⟩ : ∃ (p : Fin 2) (w : Fin 207) (l : Fin 2048), j = ix3 p w l := ⟨j 0, j 1, j 2, eq_ix3 j⟩
  have hp : p.val < 2 := p.isLt
  have e3 : ((cfg0.win 3).blk t).view.emb (ix3 p w l)
      = ix3 (⟨win0_3.index t (0 : Fin 3) * 2 + p.val, by omega⟩ : Fin 64) w l := by
    funext a; apply Fin.ext
    match a with
    | ⟨0, _⟩ => show win0_3.index t (0 : Fin 3) * 2 + 1 * p.val = win0_3.index t (0 : Fin 3) * 2 + p.val; omega
    | ⟨1, _⟩ => show win0_3.index t (1 : Fin 3) * 207 + 1 * w.val = w.val; omega
    | ⟨2, _⟩ => show win0_3.index t (2 : Fin 3) * 2048 + 1 * l.val = l.val; omega
  have e1 : ∀ v : Fin 207, ((cfg0.win 1).blk t).view.emb (ix3 p w v)
      = ix3 (⟨win0_3.index t (0 : Fin 3) * 2 + p.val, by omega⟩ : Fin 64) w v := fun v => by
    funext a; apply Fin.ext
    match a with
    | ⟨0, _⟩ => show win0_1.index t (0 : Fin 3) * 2 + 1 * p.val = win0_3.index t (0 : Fin 3) * 2 + p.val; omega
    | ⟨1, _⟩ => show win0_1.index t (1 : Fin 3) * 207 + 1 * w.val = w.val; omega
    | ⟨2, _⟩ => show win0_1.index t (2 : Fin 3) * 207 + 1 * v.val = v.val; omega
  have e0 : ∀ v : Fin 207, ((cfg0.win 0).blk t).view.emb (ix4 p (0 : Fin 1) v l)
      = ix4 (⟨win0_3.index t (0 : Fin 3) * 2 + p.val, by omega⟩ : Fin 64) (0 : Fin 2) v l := fun v => by
    funext a; apply Fin.ext
    match a with
    | ⟨0, _⟩ => show win0_0.index t (0 : Fin 4) * 2 + 1 * p.val = win0_3.index t (0 : Fin 3) * 2 + p.val; omega
    | ⟨1, _⟩ => show win0_0.index t (1 : Fin 4) * 1 + 1 * 0 = 0; omega
    | ⟨2, _⟩ => show win0_0.index t (2 : Fin 4) * 207 + 1 * v.val = v.val; omega
    | ⟨3, _⟩ => show win0_0.index t (3 : Fin 4) * 2048 + 1 * l.val = l.val; omega
  have e2 : ((cfg0.win 2).blk t).view.emb (ix3 p w (0 : Fin 1))
      = ix3 (⟨win0_3.index t (0 : Fin 3) * 2 + p.val, by omega⟩ : Fin 64) w (0 : Fin 1) := by
    funext a; apply Fin.ext
    match a with
    | ⟨0, _⟩ => show win0_2.index t (0 : Fin 3) * 2 + 1 * p.val = win0_3.index t (0 : Fin 3) * 2 + p.val; omega
    | ⟨1, _⟩ => show win0_2.index t (1 : Fin 3) * 207 + 1 * w.val = w.val; omega
    | ⟨2, _⟩ => show win0_2.index t (2 : Fin 3) * 1 + 1 * 0 = 0; omega
  show k0_pay1 (((cfg0.win 0).blk t).view.read (Elt Ideal) X) (((cfg0.win 1).blk t).view.read (Elt Ideal) L)
      (((cfg0.win 2).blk t).view.read (Elt Ideal) Bv) (ix3 p w l)
    = diffusion X L Bv (((cfg0.win 3).blk t).view.emb (ix3 p w l))
  refine (Body.payload_apply (((cfg0.win 0).blk t).view.read (Elt Ideal) X) (((cfg0.win 1).blk t).view.read (Elt Ideal) L)
    (((cfg0.win 2).blk t).view.read (Elt Ideal) Bv) p w l).trans ?_
  rw [e3, diffusion_ix3]
  unfold entry
  show ((∑ v : Fin 207, L (((cfg0.win 1).blk t).view.emb (ix3 p w v)) * X (((cfg0.win 0).blk t).view.emb (ix4 p (0 : Fin 1) v l)))
      + Bv (((cfg0.win 2).blk t).view.emb (ix3 p w (0 : Fin 1)))) + X (((cfg0.win 0).blk t).view.emb (ix4 p (0 : Fin 1) w l)) = _
  simp only [e0, e1, e2]

/-- WHAT POINT `t` WRITES BACK is block `t` of `diffusion` of the three arrays as the region finds them. -/
theorem flushed_eq (c : Dev nD) (t : Fin cfg0.N) :
    (dats m 0 c).flushed 3 t
      = ((cfg0.win 3).blk t).view.read (Elt Ideal) (diffusion (V m c main_arg0) (V m c main_v35) (V m c main_v43)) := by
  rw [Value.flushed3]
  unfold out0_3
  rw [View.canon_unit_zero zeros3]
  simp only [View.ld_unit_zero (S := S2x1x207x2048) zeros4, View.ld_unit_zero (S := S2x207x207) zeros3,
    View.ld_unit_zero (S := S2x207x1) zeros3]
  rw [block0, block1, block2]
  exact body_block t _ _ _

/-- An index of the result is in point `t`'s block iff each coordinate is in the block's range on its axis. -/
theorem mem_block (t : Fin cfg0.N) (i : S64x207x2048.Idx) :
    i ∈ ((cfg0.win 3).blk t).view.set ↔ ∀ a : Fin 3, win0_3.index t a * S2x207x2048.size a ≤ (i a).val
      ∧ (i a).val < win0_3.index t a * S2x207x2048.size a + S2x207x2048.size a := by
  show i ∈ ((View.whole main_v44).slice (win0_3.rect t)).set ↔ _
  rw [View.set_slice_whole, Rect.mem_set_unit]
  exact Iff.rfl

/-- The blocks tile the result: batch `b` lies in the block of the point whose batch block index is `b / 2`. -/
theorem cover (i : S64x207x2048.Idx) :
    ∃ t : Fin cfg0.N, (cfg0.win 3).flush t = true ∧ i ∈ ((cfg0.win 3).blk t).view.set := by
  have hi0 : (i 0).val < 64 := (i 0).isLt
  have hi1 : (i 1).val < 207 := (i 1).isLt
  have hi2 : (i 2).val < 2048 := (i 2).isLt
  obtain ⟨t, ht⟩ := index_onto ⟨(i 0).val / 2, by omega⟩
  have q0 : win0_3.index t (0 : Fin 3) = (i 0).val / 2 := congrFun ht 0
  have q1 : win0_3.index t (1 : Fin 3) = 0 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 2 ≤ (i 0).val ∧ (i 0).val < win0_3.index t (0 : Fin 3) * 2 + 2; omega
  | ⟨1, _⟩ => show win0_3.index t (1 : Fin 3) * 207 ≤ (i 1).val ∧ (i 1).val < win0_3.index t (1 : Fin 3) * 207 + 207; omega
  | ⟨2, _⟩ => show win0_3.index t (2 : Fin 3) * 2048 ≤ (i 2).val ∧ (i 2).val < win0_3.index t (2 : Fin 3) * 2048 + 2048; omega

/-- THE RESULT ARRAY after the run: `diffusion` of the input as launched and of the Laplacian and bias arrays the host
    operations before the region left. -/
theorem final (c : Dev nD) :
    (dats m 0 c).arrAt 3 cfg0.N
      = diffusion (m ((c : Thread nD τ).loc main_arg0)) (V m c main_v35) (V m c main_v43) :=
  ((dats m 0 c).arrAt_eq_of_cover 3 (diffusion (V m c main_arg0) (V m c main_v35) (V m c main_v43))
    (fun t _ => flushed_eq m c t) cover).trans (by rw [V_main_arg0])

/-- The kernel's run: the result at `diffusion`, the arguments unchanged. -/
theorem run : θ_run defs (onTc (τ := τ) (main (F := Ideal))) ⟨m, fun _ => 0, ρ⟩ fun r => ∀ c : Dev nD,
      r.2.mem ((c : Thread nD τ).loc main_v44)
          = diffusion (m ((c : Thread nD τ).loc main_arg0)) (V m c main_v35) (V m c main_v43)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.Blocks

end
-- ==== Proof.ReferenceLine.lean ====
/-
  The reference program's run.

  The reference is a straight line of host operations: it slices channel 0 out of the input and drops the unit axis,
  floors the time index (a module-local function, whose seventeen operations run at the call on the call's own buffers,
  its inner select included), gathers the batch's edge weights and bias rows, scatter-adds the weights into the dense
  weight matrices, sums their columns into the degrees, forms the Laplacian `deg · I − W`, and ends with the batched product,
  the bias added along the last axis, and the residual. Listed in order — seventy-eight operations — @main is their sequence, so
  every weakly fair execution terminates with each buffer at the fold of the operations' results over the launch contents.
-/
import proofs.«149644_j90872918049151_2_alg».proof.Proof.Gen.ReferenceIdeal
import Idealize.ShloMosaic.Lib.StableHlo.Run

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the floor division's seventeen listed at its call over the call's buffers. -/
abbrev ops : List (HloOp τ sig (Elt F)) :=
  ( StableHlo.unary main_arg0 main_v0 ((extractStridedSlice S64x1x207x2048 ![0, 0, 0, 0] · slices_S64x2x207x2048_S64x1x207x2048_0_0_0_0) : (⟨S64x2x207x2048, .f32⟩ : BufTy).Contents (Elt F) → (⟨S64x1x207x2048, .f32⟩ : BufTy).Contents (Elt F))
  :: StableHlo.reshape main_v0 main_v1 rfl shapeCasts_S64x1x207x2048_S64x207x2048
  :: StableHlo.nullary main_c (constantI S_ 32 1#32)
  :: StableHlo.TRef.unary (.of main_c) main_call0.v0 id
  :: StableHlo.TRef.unary main_call0.v0 main_call0.v1 (broadcastInDim S64 ![] bcast_S_S64)
  :: StableHlo.TRef.binary (.of main_arg1) main_call0.v1 main_call0.v2 Host.divsi
  :: StableHlo.TRef.unary (.of main_arg1) main_call0.v3 signi
  :: StableHlo.TRef.unary main_call0.v0 main_call0.v4 signi
  :: StableHlo.TRef.unary main_call0.v4 main_call0.v5 (broadcastInDim S64 ![] bcast_S_S64)
  :: StableHlo.TRef.binary main_call0.v3 main_call0.v5 main_call0.v6 (cmpi .ne)
  :: StableHlo.TRef.unary main_call0.v0 main_call0.v7 (broadcastInDim S64 ![] bcast_S_S64)
  :: StableHlo.TRef.binary (.of main_arg1) main_call0.v7 main_call0.v8 Host.remsi
  :: StableHlo.TRef.nullary main_call0.c (constantI S_ 32 0#32)
  :: StableHlo.TRef.unary main_call0.c main_call0.v9 (broadcastInDim S64 ![] bcast_S_S64)
  :: StableHlo.TRef.binary main_call0.v8 main_call0.v9 main_call0.v10 (cmpi .ne)
  :: StableHlo.TRef.binary main_call0.v6 main_call0.v10 main_call0.v11 andi
  :: StableHlo.TRef.nullary main_call0.c_0 (constantI S_ 32 1#32)
  :: StableHlo.TRef.unary main_call0.c_0 main_call0.v12 (broadcastInDim S64 ![] bcast_S_S64)
  :: StableHlo.TRef.binary main_call0.v2 main_call0.v12 main_call0.v13 subi
  :: StableHlo.TRef.ternary main_call0.v11 main_call0.v13 main_call0.v2 main_call0.call0.v0 select
  :: StableHlo.nullary main_c_0 (constantI S_ 32 0#32)
  :: StableHlo.unary main_c_0 main_v3 (broadcastInDim S64 ![] bcast_S_S64 : (⟨S_, .i32⟩ : BufTy).Contents (Elt F) → (⟨S64, .i32⟩ : BufTy).Contents (Elt F))
  :: StableHlo.binary main_v2 main_v3 main_v4 (cmpi .slt : (⟨S64, .i32⟩ : BufTy).Contents (Elt F) → (⟨S64, .i32⟩ : BufTy).Contents (Elt F) → (⟨S64, .i1⟩ : BufTy).Contents (Elt F))
  :: StableHlo.nullary main_c_1 (constantI S_ 32 288#32)
  :: StableHlo.unary main_c_1 main_v5 (broadcastInDim S64 ![] bcast_S_S64 : (⟨S_, .i32⟩ : BufTy).Contents (Elt F) → (⟨S64, .i32⟩ : BufTy).Contents (Elt F))
  :: StableHlo.binary main_v2 main_v5 main_v6 (addi : (⟨S64, .i32⟩ : BufTy).Contents (Elt F) → (⟨S64, .i32⟩ : BufTy).Contents (Elt F) → (⟨S64, .i32⟩ : BufTy).Contents (Elt F))
  :: StableHlo.ternary main_v4 main_v6 main_v2 main_v7 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v7 main_v8 (broadcastInDim S64x1 ![0] bcast_S64_S64x1_0 : (⟨S64, .i32⟩ : BufTy).Contents (Elt F) → (⟨S64x1, .i32⟩ : BufTy).Contents (Elt F))
  :: StableHlo.binary main_arg4 main_v8 main_v9 ((fun x i => Host.gather gather_S288x1722_S64x1_S64x1722_1_0_n_n_0_1_11722 x i) : (⟨S288x1722, .f32⟩ : BufTy).Contents (Elt F) → (⟨S64x1, .i32⟩ : BufTy).Contents (Elt F) → (⟨S64x1722, .f32⟩ : BufTy).Contents (Elt F))
  :: StableHlo.nullary main_cst (constant S_ .f32 0x00000000#32)
  :: StableHlo.unary main_cst main_v10 (broadcastInDim S64x207x207 ![] bcast_S_S64x207x207 : (⟨S_, .f32⟩ : BufTy).Contents (Elt F) → (⟨S64x207x207, .f32⟩ : BufTy).Contents (Elt F))
  :: StableHlo.nullary main_c_2 (constantI S_ 32 0#32)
  :: StableHlo.unary main_c_2 main_v11 (broadcastInDim S1722 ![] bcast_S_S1722 : (⟨S_, .i32⟩ : BufTy).Contents (Elt F) → (⟨S1722, .i32⟩ : BufTy).Contents (Elt F))
  :: StableHlo.binary main_arg2 main_v11 main_v12 (cmpi .slt : (⟨S1722, .i32⟩ : BufTy).Contents (Elt F) → (⟨S1722, .i32⟩ : BufTy).Contents (Elt F) → (⟨S1722, .i1⟩ : BufTy).Contents (Elt F))
  :: StableHlo.nullary main_c_3 (constantI S_ 32 207#32)
  :: StableHlo.unary main_c_3 main_v13 (broadcastInDim S1722 ![] bcast_S_S1722 : (⟨S_, .i32⟩ : BufTy).Contents (Elt F) → (⟨S1722, .i32⟩ : BufTy).Contents (Elt F))
  :: StableHlo.binary main_arg2 main_v13 main_v14 (addi : (⟨S1722, .i32⟩ : BufTy).Contents (Elt F) → (⟨S1722, .i32⟩ : BufTy).Contents (Elt F) → (⟨S1722, .i32⟩ : BufTy).Contents (Elt F))
  :: StableHlo.ternary main_v12 main_v14 main_arg2 main_v15 (select : (⟨S1722, .i1⟩ : BufTy).Contents (Elt F) → (⟨S1722, .i32⟩ : BufTy).Contents (Elt F) → (⟨S1722, .i32⟩ : BufTy).Contents (Elt F) → (⟨S1722, .i32⟩ : BufTy).Contents (Elt F))
  :: StableHlo.nullary main_c_4 (constantI S_ 32 0#32)
  :: StableHlo.unary main_c_4 main_v16 (broadcastInDim S1722 ![] bcast_S_S1722 : (⟨S_, .i32⟩ : BufTy).Contents (Elt F) → (⟨S1722, .i32⟩ : BufTy).Contents (Elt F))
  :: StableHlo.binary main_arg3 main_v16 main_v17 (cmpi .slt : (⟨S1722, .i32⟩ : BufTy).Contents (Elt F) → (⟨S1722, .i32⟩ : BufTy).Contents (Elt F) → (⟨S1722, .i1⟩ : BufTy).Contents (Elt F))
  :: StableHlo.nullary main_c_5 (constantI S_ 32 207#32)
  :: StableHlo.unary main_c_5 main_v18 (broadcastInDim S1722 ![] bcast_S_S1722 : (⟨S_, .i32⟩ : BufTy).Contents (Elt F) → (⟨S1722, .i32⟩ : BufTy).Contents (Elt F))
  :: StableHlo.binary main_arg3 main_v18 main_v19 (addi : (⟨S1722, .i32⟩ : BufTy).Contents (Elt F) → (⟨S1722, .i32⟩ : BufTy).Contents (Elt F) → (⟨S1722, .i32⟩ : BufTy).Contents (Elt F))
  :: StableHlo.ternary main_v17 main_v19 main_arg3 main_v20 (select : (⟨S1722, .i1⟩ : BufTy).Contents (Elt F) → (⟨S1722, .i32⟩ : BufTy).Contents (Elt F) → (⟨S1722, .i32⟩ : BufTy).Contents (Elt F) → (⟨S1722, .i32⟩ : BufTy).Contents (Elt F))
  :: StableHlo.unary main_v15 main_v21 (broadcastInDim S1722x1 ![0] bcast_S1722_S1722x1_0 : (⟨S1722, .i32⟩ : BufTy).Contents (Elt F) → (⟨S1722x1, .i32⟩ : BufTy).Contents (Elt F))
  :: StableHlo.unary main_v20 main_v22 (broadcastInDim S1722x1 ![0] bcast_S1722_S1722x1_0 : (⟨S1722, .i32⟩ : BufTy).Contents (Elt F) → (⟨S1722x1, .i32⟩ : BufTy).Contents (Elt F))
  :: StableHlo.binary main_v21 main_v22 main_v23 ((fun a b => concatenate S1722x2 1 [⟨S1722x1, a⟩, ⟨S1722x1, b⟩] concatenates_S1722x1_S1722x1_S1722x2_d1) : (⟨S1722x1, .i32⟩ : BufTy).Contents (Elt F) → (⟨S1722x1, .i32⟩ : BufTy).Contents (Elt F) → (⟨S1722x2, .i32⟩ : BufTy).Contents (Elt F))
  :: StableHlo.ternary main_v10 main_v23 main_v9 main_v24 ((fun x i u => Host.scatterAdd scatter_S64x207x207_S1722x2_S64x1722_0_12_12_1 x i u) : (⟨S64x207x207, .f32⟩ : BufTy).Contents (Elt F) → (⟨S1722x2, .i32⟩ : BufTy).Contents (Elt F) → (⟨S64x1722, .f32⟩ : BufTy).Contents (Elt F) → (⟨S64x207x207, .f32⟩ : BufTy).Contents (Elt F))
  :: StableHlo.nullary main_cst_6 (constant S_ .f32 0x00000000#32)
  :: StableHlo.binary main_v24 main_cst_6 main_v25 ((fun x v => Host.reduceAdd x v reducesTo_S64x207x207_S64x207_d1 h_S_) : (⟨S64x207x207, .f32⟩ : BufTy).Contents (Elt F) → (⟨S_, .f32⟩ : BufTy).Contents (Elt F) → (⟨S64x207, .f32⟩ : BufTy).Contents (Elt F))
  :: StableHlo.unary main_v25 main_v26 (broadcastInDim S64x207x1 ![0, 1] bcast_S64x207_S64x207x1_0_1 : (⟨S64x207, .f32⟩ : BufTy).Contents (Elt F) → (⟨S64x207x1, .f32⟩ : BufTy).Contents (Elt F))
  :: StableHlo.nullary main_v27 (iotaInDim S207x207 32 0)
  :: StableHlo.nullary main_v28 (iotaInDim S207x207 32 1)
  :: StableHlo.nullary main_c_7 (constantI S_ 32 0#32)
  :: StableHlo.unary main_c_7 main_v29 (broadcastInDim S207x207 ![] bcast_S_S207x207 : (⟨S_, .i32⟩ : BufTy).Contents (Elt F) → (⟨S207x207, .i32⟩ : BufTy).Contents (Elt F))
  :: StableHlo.binary main_v27 main_v29 main_v30 (addi : (⟨S207x207, .i32⟩ : BufTy).Contents (Elt F) → (⟨S207x207, .i32⟩ : BufTy).Contents (Elt F) → (⟨S207x207, .i32⟩ : BufTy).Contents (Elt F))
  :: StableHlo.binary main_v30 main_v28 main_v31 (cmpi .eq : (⟨S207x207, .i32⟩ : BufTy).Contents (Elt F) → (⟨S207x207, .i32⟩ : BufTy).Contents (Elt F) → (⟨S207x207, .i1⟩ : BufTy).Contents (Elt F))
  :: StableHlo.unary main_v31 main_v32 (uitofp .f32 : (⟨S207x207, .i1⟩ : BufTy).Contents (Elt F) → (⟨S207x207, .f32⟩ : BufTy).Contents (Elt F))
  :: StableHlo.unary main_v32 main_v33 (broadcastInDim S1x207x207 ![1, 2] bcast_S207x207_S1x207x207_1_2 : (⟨S207x207, .f32⟩ : BufTy).Contents (Elt F) → (⟨S1x207x207, .f32⟩ : BufTy).Contents (Elt F))
  :: StableHlo.unary main_v26 main_v34 (broadcastInDim S64x207x207 ![0, 1, 2] bcast_S64x207x1_S64x207x207_0_1_2 : (⟨S64x207x1, .f32⟩ : BufTy).Contents (Elt F) → (⟨S64x207x207, .f32⟩ : BufTy).Contents (Elt F))
  :: StableHlo.unary main_v33 main_v35 (broadcastInDim S64x207x207 ![0, 1, 2] bcast_S1x207x207_S64x207x207_0_1_2 : (⟨S1x207x207, .f32⟩ : BufTy).Contents (Elt F) → (⟨S64x207x207, .f32⟩ : BufTy).Contents (Elt F))
  :: StableHlo.binary main_v34 main_v35 main_v36 (mulf : (⟨S64x207x207, .f32⟩ : BufTy).Contents (Elt F) → (⟨S64x207x207, .f32⟩ : BufTy).Contents (Elt F) → (⟨S64x207x207, .f32⟩ : BufTy).Contents (Elt F))
  :: StableHlo.binary main_v36 main_v24 main_v37 (subf : (⟨S64x207x207, .f32⟩ : BufTy).Contents (Elt F) → (⟨S64x207x207, .f32⟩ : BufTy).Contents (Elt F) → (⟨S64x207x207, .f32⟩ : BufTy).Contents (Elt F))
  :: StableHlo.nullary main_c_8 (constantI S_ 32 0#32)
  :: StableHlo.unary main_c_8 main_v38 (broadcastInDim S64 ![] bcast_S_S64 : (⟨S_, .i32⟩ : BufTy).Contents (Elt F) → (⟨S64, .i32⟩ : BufTy).Contents (Elt F))
  :: StableHlo.binary main_v2 main_v38 main_v39 (cmpi .slt : (⟨S64, .i32⟩ : BufTy).Contents (Elt F) → (⟨S64, .i32⟩ : BufTy).Contents (Elt F) → (⟨S64, .i1⟩ : BufTy).Contents (Elt F))
  :: StableHlo.nullary main_c_9 (constantI S_ 32 288#32)
  :: StableHlo.unary main_c_9 main_v40 (broadcastInDim S64 ![] bcast_S_S64 : (⟨S_, .i32⟩ : BufTy).Contents (Elt F) → (⟨S64, .i32⟩ : BufTy).Contents (Elt F))
  :: StableHlo.binary main_v2 main_v40 main_v41 (addi : (⟨S64, .i32⟩ : BufTy).Contents (Elt F) → (⟨S64, .i32⟩ : BufTy).Contents (Elt F) → (⟨S64, .i32⟩ : BufTy).Contents (Elt F))
  :: StableHlo.ternary main_v39 main_v41 main_v2 main_v42 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v42 main_v43 (broadcastInDim S64x1 ![0] bcast_S64_S64x1_0 : (⟨S64, .i32⟩ : BufTy).Contents (Elt F) → (⟨S64x1, .i32⟩ : BufTy).Contents (Elt F))
  :: StableHlo.binary main_arg5 main_v43 main_v44 ((fun x i => Host.gather gather_S288x207_S64x1_S64x207_1_0_n_n_0_1_1207 x i) : (⟨S288x207, .f32⟩ : BufTy).Contents (Elt F) → (⟨S64x1, .i32⟩ : BufTy).Contents (Elt F) → (⟨S64x207, .f32⟩ : BufTy).Contents (Elt F))
  :: StableHlo.unary main_v44 main_v45 (broadcastInDim S64x207x1 ![0, 1] bcast_S64x207_S64x207x1_0_1 : (⟨S64x207, .f32⟩ : BufTy).Contents (Elt F) → (⟨S64x207x1, .f32⟩ : BufTy).Contents (Elt F))
  :: StableHlo.binary main_v37 main_v1 main_v46 ((fun l r => Host.dotGeneral dot_S64x207x207_S64x207x2048_S64x207x2048_2_1_1_2_0_0 none l r) : (⟨S64x207x207, .f32⟩ : BufTy).Contents (Elt F) → (⟨S64x207x2048, .f32⟩ : BufTy).Contents (Elt F) → (⟨S64x207x2048, .f32⟩ : BufTy).Contents (Elt F))
  :: StableHlo.unary main_v45 main_v47 (broadcastInDim S64x207x2048 ![0, 1, 2] bcast_S64x207x1_S64x207x2048_0_1_2 : (⟨S64x207x1, .f32⟩ : BufTy).Contents (Elt F) → (⟨S64x207x2048, .f32⟩ : BufTy).Contents (Elt F))
  :: StableHlo.binary main_v46 main_v47 main_v48 (addf : (⟨S64x207x2048, .f32⟩ : BufTy).Contents (Elt F) → (⟨S64x207x2048, .f32⟩ : BufTy).Contents (Elt F) → (⟨S64x207x2048, .f32⟩ : BufTy).Contents (Elt F))
  :: StableHlo.binary main_v48 main_v1 main_v49 (addf : (⟨S64x207x2048, .f32⟩ : BufTy).Contents (Elt F) → (⟨S64x207x2048, .f32⟩ : BufTy).Contents (Elt F) → (⟨S64x207x2048, .f32⟩ : BufTy).Contents (Elt F))
  :: [] )

set_option maxRecDepth 8192 in
set_option maxHeartbeats 4000000 in
/-- @main is that straight line: its two halves and the two module-local functions unfolded at their calls, both
    sides are one chain of steps once sequencing is re-associated. -/
theorem main_eq (c : Dev nD) : main (F := F) c = seq ops := by
  simp only [main, main_part0, main_part1, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., binary_bufs_sub .., unary_bufs_sub .., nullary_bufs_sub .., nullary_bufs_sub .., nullary_bufs_sub .., unary_bufs_sub .., binary_bufs_sub .., binary_bufs_sub .., unary_bufs_sub .., unary_bufs_sub .., unary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., unary_bufs_sub .., binary_bufs_sub .., binary_bufs_sub ..⟩

/-- From any memory with zero counters, every weakly fair execution of the reference terminates, and every final state has
    each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.Line

end
-- ==== Proof.FoldRead.lean ====
/-
  Reading a buffer off a straight line of host operations, as one composed term.

  The contents of a buffer after a line of operations is a fold of the operations' results over the launch contents. Read at
  one buffer, the fold unwinds to the operations' functions applied to one another, down to the argument buffers: each
  operation's result at its own buffer is its function of its operands' contents, and at any other buffer what was there.
  The one operation this unwinding does not pass through by itself is a concatenation, whose pieces sit in a list of
  (shape, array) pairs: it is named here as a function of its two arrays, so that the pieces are ordinary arguments.
-/
import Idealize.ShloMosaic.Lib.StableHlo.Run

noncomputable section

namespace Cert.FoldRead

open Idealize.ShloMosaic Idealize.ShloMosaic.StableHlo

/-- The concatenation of two arrays along an axis, as a function of the two arrays. -/
def concatPair {α : Type} (t s₁ s₂ : Shape) (a : Fin t.rank) (h : Shape.Concatenates [s₁, s₂] t a)
    (x₁ : s₁.Idx → α) (x₂ : s₂.Idx → α) : t.Idx → α :=
  concatenate t a [⟨s₁, x₁⟩, ⟨s₂, x₂⟩] h

theorem concatenate_pair {α : Type} (t s₁ s₂ : Shape) (a : Fin t.rank) (h : Shape.Concatenates [s₁, s₂] t a)
    (x₁ : s₁.Idx → α) (x₂ : s₂.Idx → α) :
    concatenate t a [⟨s₁, x₁⟩, ⟨s₂, x₂⟩] h = concatPair t s₁ s₂ a h x₁ x₂ := rfl

/-- Unwinds every `after ops V b` in the goal, for literal lists of operations over literal buffers, to the operations'
    functions of the contents of the buffers no operation writes. -/
macro "read_fold" : tactic =>
  `(tactic| (simp (disch := decide) only [after_cons, after_nil, concatenate_pair,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Cert.FoldRead

end
-- ==== Proof.ReferenceValue.lean ====
/-
  The reference's result, entry by entry.

  Three intermediate arrays of the reference's line are named and not opened: the channel-0 slab `x[:, 0]` (the slice of the
  input with its unit axis dropped), the Laplacian array and the bias column. Over them the result is
  `(dot_general lap slab + broadcast bias) + slab`; read at the entry `(b, w, l)` — the host's `dot_general` the plain
  contraction sum at the ideal values, re-indexed over `Fin 207` by the batched product's lemma, the slab's entry `(b, v, l)`
  the input's entry `(b, 0, v, l)`, the bias broadcast read at last coordinate 0 — it is `diffusion` of the input, the
  Laplacian array and the bias column.
-/
import proofs.«149644_j90872918049151_2_alg».proof.Proof.ReferenceLine
import proofs.«149644_j90872918049151_2_alg».proof.Proof.Diffusion
import proofs.«149644_j90872918049151_2_alg».proof.Proof.BatchedProduct
import proofs.«149644_j90872918049151_2_alg».proof.Proof.FoldRead
import Idealize.ShloMosaic.Lib.Pipeline.Value
import Idealize.ShloMosaic.Lib.ValueIdx
import Idealize.ShloMosaic.PureOps.Ideal.Laws

noncomputable section

namespace Cert.ReferenceIdeal.Line

open Cert.ReferenceIdeal Cert.ReferenceIdeal.Gen Idealize.ShloMosaic Idealize.ShloMosaic.TcCoe Idealize.SL.Sem Idealize.ShloMosaic.StableHlo
open Idealize.ShloMosaic.ValueIdx Cert.Diffusion Cert.FoldRead

variable (L : Valuation τ sig (Elt Ideal))

/-- The channel-0 slab the line computes first. -/
def slab : S64x207x2048.Idx → EReal := after (ops (F := Ideal)) L (main_v1 : DevRef τ sig)
/-- The Laplacian array `deg · I − W` the line builds from the index and weight arguments. -/
def lap : S64x207x207.Idx → EReal := after (ops (F := Ideal)) L (main_v37 : DevRef τ sig)
/-- The bias column the line gathers. -/
def biasCol : S64x207x1.Idx → EReal := after (ops (F := Ideal)) L (main_v45 : DevRef τ sig)

/-- The result over the three named arrays: the line's last four operations. -/
theorem out_eq : (after (ops (F := Ideal)) L (main_v49 : DevRef τ sig) : S64x207x2048.Idx → EReal)
    = addf (F := Ideal) (addf (F := Ideal)
        (Host.dotGeneral (F := Ideal) (φ₁ := .f32) (φ₂ := .f32) dot_S64x207x207_S64x207x2048_S64x207x2048_2_1_1_2_0_0 none (lap L) (slab L))
        (broadcastInDim S64x207x2048 ![0, 1, 2] bcast_S64x207x1_S64x207x2048_0_1_2 (biasCol L))) (slab L) := by
  unfold lap slab biasCol
  read_fold

/-- The slab is the input's channel 0: its entry `(b, w, l)` is the input's entry `(b, 0, w, l)`. -/
theorem slab_apply (b : Fin 64) (w : Fin 207) (l : Fin 2048) :
    slab L (ix3 b w l) = L (main_arg0 : DevRef τ sig) (ix4 b (0 : Fin 2) w l) := by
  have e : slab L = shapeCast S64x207x2048
      (extractStridedSlice S64x1x207x2048 ![0, 0, 0, 0] (L (main_arg0 : DevRef τ sig)) slices_S64x2x207x2048_S64x1x207x2048_0_0_0_0)
      shapeCasts_S64x1x207x2048_S64x207x2048 := by
    unfold slab
    read_fold
    rfl
  rw [e]
  refine (shapeCast_apply _ _ (ix3 b w l) (ix4 b (0 : Fin 1) w l) (by
    rw [Shape.rowMajor_val_four, Shape.rowMajor_val_three]
    show ((b.val * 1 + 0) * 207 + w.val) * 2048 + l.val = (b.val * 207 + w.val) * 2048 + l.val
    omega)).trans ?_
  exact extractStridedSlice_apply _ _ _ (ix4 b (0 : Fin 1) w l) (ix4 b (0 : Fin 2) w l) (fun a => by
    match a with
    | ⟨0, _⟩ => show b.val = 0 + b.val; omega
    | ⟨1, _⟩ => show 0 = 0 + 0; omega
    | ⟨2, _⟩ => show w.val = 0 + w.val; omega
    | ⟨3, _⟩ => show l.val = 0 + l.val; omega)

/-- The bias column broadcast along the last axis: the entry `(b, w, l)` is the column's entry `(b, w, 0)`. -/
theorem biasBroadcast_apply (y : S64x207x1.Idx → EReal) (b : Fin 64) (w : Fin 207) (l : Fin 2048) :
    broadcastInDim S64x207x2048 ![0, 1, 2] bcast_S64x207x1_S64x207x2048_0_1_2 y (ix3 b w l) = y (ix3 b w (0 : Fin 1)) :=
  broadcastInDim_apply _ _ y (ix3 b w l) (ix3 b w (0 : Fin 1)) (fun a => by
    match a with
    | ⟨0, _⟩ => rfl
    | ⟨1, _⟩ => rfl
    | ⟨2, _⟩ => rfl)

/-- The reference's dimension numbers are the batched product's, at sixty-four batches. -/
theorem dot_eq : dot_S64x207x207_S64x207x2048_S64x207x2048_2_1_1_2_0_0
    = Cert.BatchedProduct.dims 64 207 207 2048 Facts₀.dot_S64x207x207_S64x207x2048_S64x207x2048_2_1_1_2_0_0_wf := rfl

/-- THE REFERENCE'S RESULT is `diffusion` of the input, the Laplacian array and the bias column. -/
theorem out_diffusion : (after (ops (F := Ideal)) L (main_v49 : DevRef τ sig) : S64x207x2048.Idx → EReal)
    = diffusion (L (main_arg0 : DevRef τ sig)) (lap L) (biasCol L) := by
  rw [out_eq]
  refine funext fun (i : S64x207x2048.Idx) => ?_
  obtain ⟨b, w, l, rfl⟩ : ∃ (b : Fin 64) (w : Fin 207) (l : Fin 2048), i = ix3 b w l := ⟨i 0, i 1, i 2, eq_ix3 i⟩
  rw [diffusion_ix3]
  unfold entry
  rw [addf_apply, addf_apply, biasBroadcast_apply, slab_apply]
  simp only [Host.dotGeneral]
  rw [Ideal.dotGeneral_apply, dot_eq, Cert.BatchedProduct.sum_eq]
  simp only [slab_apply]

/-- No operation of the line writes an argument buffer: each keeps its contents. -/
theorem kept_arg0 : after (ops (F := Ideal)) L (main_arg0 : DevRef τ sig) = L (main_arg0 : DevRef τ sig) := by read_fold
theorem kept_arg1 : after (ops (F := Ideal)) L (main_arg1 : DevRef τ sig) = L (main_arg1 : DevRef τ sig) := by read_fold
theorem kept_arg2 : after (ops (F := Ideal)) L (main_arg2 : DevRef τ sig) = L (main_arg2 : DevRef τ sig) := by read_fold
theorem kept_arg3 : after (ops (F := Ideal)) L (main_arg3 : DevRef τ sig) = L (main_arg3 : DevRef τ sig) := by read_fold
theorem kept_arg4 : after (ops (F := Ideal)) L (main_arg4 : DevRef τ sig) = L (main_arg4 : DevRef τ sig) := by read_fold
theorem kept_arg5 : after (ops (F := Ideal)) L (main_arg5 : DevRef τ sig) = L (main_arg5 : DevRef τ sig) := by read_fold

end Cert.ReferenceIdeal.Line

end
-- ==== Proof.HeadAgree.lean ====
/-
  The two programs build the same Laplacian and the same bias column.

  Before its kernel launch the kernel's program runs, on the host, the very operations the reference runs before its
  batched product: the floored time index, the two gathers, the scatter-add of the edge weights, the column sums, the
  identity mask, `deg · I − W`, and the bias rows as a column. Read off each program's line as one composed term of the
  five index and weight arguments, the two Laplacian arrays are the same term, and so are the two bias columns — the
  operations are never opened, only matched one against one; the arguments agree by hypothesis.
-/
import proofs.«149644_j90872918049151_2_alg».proof.Proof.Gen.KernelIdeal.Frame
import proofs.«149644_j90872918049151_2_alg».proof.Proof.ReferenceValue
import proofs.«149644_j90872918049151_2_alg».proof.Proof.FoldRead
import Idealize.ShloMosaic.PureOps.Ideal

noncomputable section

namespace Cert.Proof.Head

open Idealize.ShloMosaic Idealize.ShloMosaic.TcCoe Idealize.SL.Sem Idealize.ShloMosaic.StableHlo Cert.FoldRead

variable (LK : Valuation Cert.KernelIdeal.τ Cert.KernelIdeal.sig (Elt Ideal))
  (LR : Valuation Cert.ReferenceIdeal.τ Cert.ReferenceIdeal.sig (Elt Ideal))

/-- The kernel program's host operations before its launch, as one line. -/
abbrev kernelLine : List (HloOp Cert.KernelIdeal.τ Cert.KernelIdeal.sig (Elt Ideal)) :=
  List.flatten [Cert.KernelIdeal.Gen.hostOps0, Cert.KernelIdeal.Gen.hostOps0_1, Cert.KernelIdeal.Gen.hostOps0_2]

set_option maxHeartbeats 4000000 in
set_option maxRecDepth 8192 in
/-- THE LAPLACIAN ARRAYS AGREE: from contents that agree on the time index, the edge endpoints and the edge weights. -/
theorem lap_agree
    (h1 : LR (Cert.ReferenceIdeal.main_arg1 : DevRef Cert.ReferenceIdeal.τ Cert.ReferenceIdeal.sig)
      = LK (Cert.KernelIdeal.main_arg1 : DevRef Cert.KernelIdeal.τ Cert.KernelIdeal.sig))
    (h2 : LR (Cert.ReferenceIdeal.main_arg2 : DevRef Cert.ReferenceIdeal.τ Cert.ReferenceIdeal.sig)
      = LK (Cert.KernelIdeal.main_arg2 : DevRef Cert.KernelIdeal.τ Cert.KernelIdeal.sig))
    (h3 : LR (Cert.ReferenceIdeal.main_arg3 : DevRef Cert.ReferenceIdeal.τ Cert.ReferenceIdeal.sig)
      = LK (Cert.KernelIdeal.main_arg3 : DevRef Cert.KernelIdeal.τ Cert.KernelIdeal.sig))
    (h4 : LR (Cert.ReferenceIdeal.main_arg4 : DevRef Cert.ReferenceIdeal.τ Cert.ReferenceIdeal.sig)
      = LK (Cert.KernelIdeal.main_arg4 : DevRef Cert.KernelIdeal.τ Cert.KernelIdeal.sig)) :
    Cert.ReferenceIdeal.Line.lap LR
      = after kernelLine LK (Cert.KernelIdeal.main_v35 : DevRef Cert.KernelIdeal.τ Cert.KernelIdeal.sig) := by
  unfold Cert.ReferenceIdeal.Line.lap
  simp only [kernelLine, Cert.KernelIdeal.Gen.hostOps0, Cert.KernelIdeal.Gen.hostOps0_1, Cert.KernelIdeal.Gen.hostOps0_2,
    List.flatten_cons, List.flatten_nil, List.append_nil, List.cons_append, List.nil_append]
  read_fold
  rw [h1, h2, h3, h4]
  rfl

set_option maxHeartbeats 4000000 in
set_option maxRecDepth 8192 in
/-- THE BIAS COLUMNS AGREE: from contents that agree on the time index and the bias table. -/
theorem bias_agree
    (h1 : LR (Cert.ReferenceIdeal.main_arg1 : DevRef Cert.ReferenceIdeal.τ Cert.ReferenceIdeal.sig)
      = LK (Cert.KernelIdeal.main_arg1 : DevRef Cert.KernelIdeal.τ Cert.KernelIdeal.sig))
    (h5 : LR (Cert.ReferenceIdeal.main_arg5 : DevRef Cert.ReferenceIdeal.τ Cert.ReferenceIdeal.sig)
      = LK (Cert.KernelIdeal.main_arg5 : DevRef Cert.KernelIdeal.τ Cert.KernelIdeal.sig)) :
    Cert.ReferenceIdeal.Line.biasCol LR
      = after kernelLine LK (Cert.KernelIdeal.main_v43 : DevRef Cert.KernelIdeal.τ Cert.KernelIdeal.sig) := by
  unfold Cert.ReferenceIdeal.Line.biasCol
  simp only [kernelLine, Cert.KernelIdeal.Gen.hostOps0, Cert.KernelIdeal.Gen.hostOps0_1, Cert.KernelIdeal.Gen.hostOps0_2,
    List.flatten_cons, List.flatten_nil, List.append_nil, List.cons_append, List.nil_append]
  read_fold
  rw [h1, h5]
  rfl

end Cert.Proof.Head

end
-- ==== Proof.lean ====
/-
  The certificate: a graph-diffusion step computed by a pipelined kernel, against its plain reference.

  Both programs take an input `x` of shape [64, 2, 207, 2048], a time index per batch, the endpoints of 1722 edges, a table
  of edge weights and a table of node biases per time slot. Both first build, on the host and by the same operations, the
  per-batch Laplacian `Lap = deg · I − W` (the edge weights of the batch's time slot scattered into a dense matrix `W`, its
  column sums on the diagonal) and the per-batch bias column. The reference then computes `(Lap · x[:, 0] + bias) + x[:, 0]`
  with one batched product over all sixty-four batches; the kernel computes it two batches per grid point, reading channel 0
  of the input through its block index map, multiplying into a zero accumulator, and adding the broadcast bias and the block.

  At the ideal values both results are the one function `Cert.Diffusion.diffusion` of the input, the Laplacian array and
  the bias column:
    · the kernel's 32 blocks tile the result and block `t` is that function restricted to batches `2t, 2t + 1`
      (Proof/KernelBody.lean: the body's value at an entry; Proof/KernelBlocks.lean: from blocks to the array);
    · the reference's line of host operations ends at that function of its own Laplacian array and bias column
      (Proof/ReferenceLine.lean: the run; Proof/ReferenceValue.lean: the result entry by entry);
    · the two Laplacian arrays, and the two bias columns, are the same composed term of arguments that agree
      (Proof/HeadAgree.lean).
  The two sums are associated alike and the contraction runs over the same index on both sides, so nothing about the
  extended reals is used beyond `0 + s = s` for the kernel's zero accumulator: the precondition (finite inputs) is not
  needed for the values. The frames of the two kernel programs are the generated ones; the reference's frame is its run with
  the result dropped. The idealization rewrote no operation, so `preserves` has nothing to state.
-/
import proofs.«149644_j90872918049151_2_alg».proof.Defs
import proofs.«149644_j90872918049151_2_alg».proof.Proof.Gen.Kernel
import proofs.«149644_j90872918049151_2_alg».proof.Proof.Gen.Kernel.Skeleton
import proofs.«149644_j90872918049151_2_alg».proof.Proof.Gen.Kernel.Launch
import proofs.«149644_j90872918049151_2_alg».proof.Proof.Gen.Kernel.Points
import proofs.«149644_j90872918049151_2_alg».proof.Proof.Gen.Kernel.Frame
import proofs.«149644_j90872918049151_2_alg».proof.Proof.Gen.KernelIdeal
import proofs.«149644_j90872918049151_2_alg».proof.Proof.Gen.KernelIdeal.Skeleton
import proofs.«149644_j90872918049151_2_alg».proof.Proof.Gen.KernelIdeal.Launch
import proofs.«149644_j90872918049151_2_alg».proof.Proof.Gen.KernelIdeal.Points
import proofs.«149644_j90872918049151_2_alg».proof.Proof.Gen.KernelIdeal.Frame
import proofs.«149644_j90872918049151_2_alg».proof.Proof.Gen.KernelIdeal.Value
import proofs.«149644_j90872918049151_2_alg».proof.Proof.Gen.ReferenceIdeal
import proofs.«149644_j90872918049151_2_alg».proof.Proof.Gen.Pre_finite_inputs
import proofs.«149644_j90872918049151_2_alg».proof.Proof.KernelBlocks
import proofs.«149644_j90872918049151_2_alg».proof.Proof.ReferenceValue
import proofs.«149644_j90872918049151_2_alg».proof.Proof.HeadAgree
import Idealize.ShloMosaic.Adequacy
import Idealize.ShloMosaic.Init

noncomputable section

namespace Cert.Proof

open Idealize.ShloMosaic Idealize.ShloMosaic.TcCoe Idealize.SL.Sem Idealize.ShloMosaic.StableHlo

/-- The kernel as printed runs, and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs, and no operation of its line writes an argument. -/
theorem frame_reference : Cert.frame_ReferenceIdeal := fun m ρ _ =>
  (θ_run Cert.ReferenceIdeal.defs _ _).mono
    (fun _ h c => ⟨(h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _)⟩)
    (Cert.ReferenceIdeal.Line.run (F := Ideal) m ρ)

/-- The idealization rewrote no operation. -/
theorem preserves : Cert.preserves_Kernel_KernelIdeal := trivial

/-- From memories agreeing on the arguments both programs end with the same result: `diffusion` of the input and of the
    Laplacian array and bias column the kernel program's host operations build — which are the reference's. -/
theorem algebraic : Cert.algebraic_KernelIdeal_ReferenceIdeal := by
  intro m ρ m' ρ' _ hagree
  refine ⟨fun c => Cert.Diffusion.diffusion (m ((c.tc : Thread Cert.KernelIdeal.nD Cert.KernelIdeal.τ).loc Cert.KernelIdeal.main_arg0))
      (Cert.KernelIdeal.Gen.V m c Cert.KernelIdeal.main_v35) (Cert.KernelIdeal.Gen.V m c Cert.KernelIdeal.main_v43),
    Cert.KernelIdeal.Blocks.run m ρ, ?_⟩
  refine (θ_run Cert.ReferenceIdeal.defs _ _).mono
    (fun _ h c => ⟨(h c Cert.ReferenceIdeal.main_v49).trans ?_,
      (h c Cert.ReferenceIdeal.main_arg0).trans (Cert.ReferenceIdeal.Line.kept_arg0 _),
      (h c Cert.ReferenceIdeal.main_arg1).trans (Cert.ReferenceIdeal.Line.kept_arg1 _),
      (h c Cert.ReferenceIdeal.main_arg2).trans (Cert.ReferenceIdeal.Line.kept_arg2 _),
      (h c Cert.ReferenceIdeal.main_arg3).trans (Cert.ReferenceIdeal.Line.kept_arg3 _),
      (h c Cert.ReferenceIdeal.main_arg4).trans (Cert.ReferenceIdeal.Line.kept_arg4 _),
      (h c Cert.ReferenceIdeal.main_arg5).trans (Cert.ReferenceIdeal.Line.kept_arg5 _)⟩)
    (Cert.ReferenceIdeal.Line.run (F := Ideal) m' ρ')
  have hl := Cert.Proof.Head.lap_agree (launchContents m c) (launchContents m' c)
    (hagree c).2.1 (hagree c).2.2.1 (hagree c).2.2.2.1 (hagree c).2.2.2.2.1
  have hb := Cert.Proof.Head.bias_agree (launchContents m c) (launchContents m' c) (hagree c).2.1 (hagree c).2.2.2.2.2
  rw [Cert.ReferenceIdeal.Line.out_diffusion, hl, hb]
  exact congrArg (fun x => Cert.Diffusion.diffusion x _ _) (hagree c).1

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
